-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v78)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v78) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S800000 : S_.BroadcastsInDim S800000 (![] : Fin 0 → Fin S800000.rank)
  reducesTo_S800000_S_d0 : S800000.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S128x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x256 .f32) (main_arg1 : IVec S2x800000 32) (main_arg2 : FVec F S800000 .f32) (main_arg3 : FVec F S256x128 .f32) (main_arg4 : FVec F S128 .f32) (main_arg5 : FVec F S128x128 .f32) (main_arg6 : FVec F S128 .f32) (main_arg7 : FVec F S128x64 .f32) (main_arg8 : FVec F S64 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S2000x256 : Shape := ⟨2, ![2000, 256]⟩
abbrev S2000x128 : Shape := ⟨2, ![2000, 128]⟩
abbrev S850000x128 : Shape := ⟨2, ![850000, 128]⟩
abbrev S1x128 : Shape := ⟨2, ![1, 128]⟩
abbrev S50000x64 : Shape := ⟨2, ![50000, 64]⟩
abbrev S2000x64 : Shape := ⟨2, ![2000, 64]⟩
abbrev S850000x64 : Shape := ⟨2, ![850000, 64]⟩
abbrev S1x64 : Shape := ⟨2, ![1, 64]⟩

abbrev nBuf : Space → Nat
  | .hbm => 107
  | .vmem => 17
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S850000x1, .f32⟩
  | .hbm, ⟨71, _⟩ => ⟨S_, .i32⟩
  | .hbm, ⟨72, _⟩ => ⟨S850000, .i32⟩
  | .hbm, ⟨73, _⟩ => ⟨S850000, .i1⟩
  | .hbm, ⟨74, _⟩ => ⟨S_, .i32⟩
  | .hbm, ⟨75, _⟩ => ⟨S850000, .i32⟩
  | .hbm, ⟨76, _⟩ => ⟨S850000, .i32⟩
  | .hbm, ⟨77, _⟩ => ⟨S850000, .i32⟩
  | .hbm, ⟨78, _⟩ => ⟨S850000x1, .i32⟩
  | .hbm, ⟨79, _⟩ => ⟨S850000x128, .f32⟩
  | .hbm, ⟨80, _⟩ => ⟨S850000x128, .f32⟩
  | .hbm, ⟨81, _⟩ => ⟨S850000x128, .f32⟩
  | .hbm, ⟨82, _⟩ => ⟨S_, .f32⟩
  | .hbm, ⟨83, _⟩ => ⟨S50000x128, .f32⟩
  | .hbm, ⟨84, _⟩ => ⟨S850000x1, .i32⟩
  | .hbm, ⟨85, _⟩ => ⟨S50000x128, .f32⟩
  | .hbm, ⟨86, _⟩ => ⟨S1x128, .f32⟩
  | .hbm, ⟨87, _⟩ => ⟨S50000x64, .f32⟩
  | .hbm, ⟨88, _⟩ => ⟨S850000x1, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x64, .f32⟩
  | .hbm, ⟨98, _⟩ => ⟨S850000x64, .f32⟩
  | .hbm, ⟨99, _⟩ => ⟨S850000x64, .f32⟩
  | .hbm, ⟨100, _⟩ => ⟨S_, .f32⟩
  | .hbm, ⟨101, _⟩ => ⟨S50000x64, .f32⟩
  | .hbm, ⟨102, _⟩ => ⟨S850000x1, .i32⟩
  | .hbm, ⟨103, _⟩ => ⟨S50000x64, .f32⟩
  | .hbm, ⟨104, _⟩ => ⟨S1x64, .f32⟩
  | .hbm, ⟨105, _⟩ => ⟨S50000x64, .f32⟩
  | .hbm, ⟨106, _⟩ => ⟨S50000x64, .f32⟩
  | .local _ .vmem, ⟨0, _⟩ => ⟨S2000x256, .f32⟩
  | .local _ .vmem, ⟨1, _⟩ => ⟨S2000x256, .f32⟩
  | .local _ .vmem, ⟨2, _⟩ => ⟨S256x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S1x128, .f32⟩
  | .local _ .vmem, ⟨14, _⟩ => ⟨S128x64, .f32⟩
  | .local _ .vmem, ⟨15, _⟩ => ⟨S2000x64, .f32⟩
  | .local _ .vmem, ⟨16, _⟩ => ⟨S2000x64, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_v49 : Ref sig .tc := ⟨.hbm, 72, rfl⟩
abbrev main_v50 : Ref sig .tc := ⟨.hbm, 73, rfl⟩
abbrev main_c_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_11 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_12 : Ref sig .tc := ⟨.hbm, 89, rfl⟩
abbrev main_v64 : Ref sig .tc := ⟨.hbm, 90, rfl⟩
abbrev main_v65 : Ref sig .tc := ⟨.hbm, 91, rfl⟩
abbrev main_c_13 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_14 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x256_S256x128_S2000x128_1_0_0_1_n_n_wf : DotDims.WF S2000x256 S256x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .f32 = 32 ∨ (Rect.block (s := S50000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v60) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x256 : Shape := ⟨2, ![50000, 256]⟩
abbrev S2x800000 : Shape := ⟨2, ![2, 800000]⟩
abbrev S800000 : Shape := ⟨1, ![800000]⟩
abbrev S256x128 : Shape := ⟨2, ![256, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x800000 : Shape := ⟨2, ![1, 800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x128 : Shape := ⟨2, ![50000, 128]⟩
abbrev S850000x128 : Shape := ⟨2, ![850000, 128]⟩
abbrev S1x128 : Shape := ⟨2, ![1, 128]⟩
abbrev S50000x64 : Shape := ⟨2, ![50000, 64]⟩
abbrev S850000x64 : Shape := ⟨2, ![850000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S2x800000, .i32⟩
  | .hbm, ⟨2, _⟩ => ⟨S800000, .f32⟩
  | .hbm, ⟨3, _⟩ => ⟨S256x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000, .i32⟩
  | .hbm, ⟨14, _⟩ => ⟨S850000, .i32⟩
  | .hbm, ⟨15, _⟩ => ⟨S850000, .i32⟩
  | .hbm, ⟨16, _⟩ => ⟨S_, .f32⟩
  | .hbm, ⟨17, _⟩ => ⟨S50000, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S850000, .f32⟩
  | .hbm, ⟨41, _⟩ => ⟨S_, .i32⟩
  | .hbm, ⟨42, _⟩ => ⟨S850000, .i32⟩
  | .hbm, ⟨43, _⟩ => ⟨S850000, .i1⟩
  | .hbm, ⟨44, _⟩ => ⟨S_, .i32⟩
  | .hbm, ⟨45, _⟩ => ⟨S850000, .i32⟩
  | .hbm, ⟨46, _⟩ => ⟨S850000, .i32⟩
  | .hbm, ⟨47, _⟩ => ⟨S850000, .i32⟩
  | .hbm, ⟨48, _⟩ => ⟨S850000x1, .i32⟩
  | .hbm, ⟨49, _⟩ => ⟨S850000, .f32⟩
  | .hbm, ⟨50, _⟩ => ⟨S850000, .f32⟩
  | .hbm, ⟨51, _⟩ => ⟨S50000x128, .f32⟩
  | .hbm, ⟨52, _⟩ => ⟨S850000x1, .f32⟩
  | .hbm, ⟨53, _⟩ => ⟨S_, .i32⟩
  | .hbm, ⟨54, _⟩ => ⟨S850000, .i32⟩
  | .hbm, ⟨55, _⟩ => ⟨S850000, .i1⟩
  | .hbm, ⟨56, _⟩ => ⟨S_, .i32⟩
  | .hbm, ⟨57, _⟩ => ⟨S850000, .i32⟩
  | .hbm, ⟨58, _⟩ => ⟨S850000, .i32⟩
  | .hbm, ⟨59, _⟩ => ⟨S850000, .i32⟩
  | .hbm, ⟨60, _⟩ => ⟨S850000x1, .i32⟩
  | .hbm, ⟨61, _⟩ => ⟨S850000x128, .f32⟩
  | .hbm, ⟨62, _⟩ => ⟨S850000x128, .f32⟩
  | .hbm, ⟨63, _⟩ => ⟨S850000x128, .f32⟩
  | .hbm, ⟨64, _⟩ => ⟨S_, .f32⟩
  | .hbm, ⟨65, _⟩ => ⟨S50000x128, .f32⟩
  | .hbm, ⟨66, _⟩ => ⟨S850000x1, .i32⟩
  | .hbm, ⟨67, _⟩ => ⟨S50000x128, .f32⟩
  | .hbm, ⟨68, _⟩ => ⟨S1x128, .f32⟩
  | .hbm, ⟨69, _⟩ => ⟨S50000x128, .f32⟩
  | .hbm, ⟨70, _⟩ => ⟨S50000x128, .f32⟩
  | .hbm, ⟨71, _⟩ => ⟨S_, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S850000x1, .f32⟩
  | .hbm, ⟨76, _⟩ => ⟨S_, .i32⟩
  | .hbm, ⟨77, _⟩ => ⟨S850000, .i32⟩
  | .hbm, ⟨78, _⟩ => ⟨S850000, .i1⟩
  | .hbm, ⟨79, _⟩ => ⟨S_, .i32⟩
  | .hbm, ⟨80, _⟩ => ⟨S850000, .i32⟩
  | .hbm, ⟨81, _⟩ => ⟨S850000, .i32⟩
  | .hbm, ⟨82, _⟩ => ⟨S850000, .i32⟩
  | .hbm, ⟨83, _⟩ => ⟨S850000x1, .i32⟩
  | .hbm, ⟨84, _⟩ => ⟨S850000x128, .f32⟩
  | .hbm, ⟨85, _⟩ => ⟨S850000x128, .f32⟩
  | .hbm, ⟨86, _⟩ => ⟨S850000x128, .f32⟩
  | .hbm, ⟨87, _⟩ => ⟨S_, .f32⟩
  | .hbm, ⟨88, _⟩ => ⟨S50000x128, .f32⟩
  | .hbm, ⟨89, _⟩ => ⟨S850000x1, .i32⟩
  | .hbm, ⟨90, _⟩ => ⟨S50000x128, .f32⟩
  | .hbm, ⟨91, _⟩ => ⟨S1x128, .f32⟩
  | .hbm, ⟨92, _⟩ => ⟨S50000x128, .f32⟩
  | .hbm, ⟨93, _⟩ => ⟨S50000x128, .f32⟩
  | .hbm, ⟨94, _⟩ => ⟨S_, .f32⟩
  | .hbm, ⟨95, _⟩ => ⟨S50000x128, .f32⟩
  | .hbm, ⟨96, _⟩ => ⟨S50000x128, .f32⟩
  | .hbm, ⟨97, _⟩ => ⟨S50000x64, .f32⟩
  | .hbm, ⟨98, _⟩ => ⟨S850000x1, .f32⟩
  | .hbm, ⟨99, _⟩ => ⟨S_, .i32⟩
  | .hbm, ⟨100, _⟩ => ⟨S850000, .i32⟩
  | .hbm, ⟨101, _⟩ => ⟨S850000, .i1⟩
  | .hbm, ⟨102, _⟩ => ⟨S_, .i32⟩
  | .hbm, ⟨103, _⟩ => ⟨S850000, .i32⟩
  | .hbm, ⟨104, _⟩ => ⟨S850000, .i32⟩
  | .hbm, ⟨105, _⟩ => ⟨S850000, .i32⟩
  | .hbm, ⟨106, _⟩ => ⟨S850000x1, .i32⟩
  | .hbm, ⟨107, _⟩ => ⟨S850000x64, .f32⟩
  | .hbm, ⟨108, _⟩ => ⟨S850000x64, .f32⟩
  | .hbm, ⟨109, _⟩ => ⟨S850000x64, .f32⟩
  | .hbm, ⟨110, _⟩ => ⟨S_, .f32⟩
  | .hbm, ⟨111, _⟩ => ⟨S50000x64, .f32⟩
  | .hbm, ⟨112, _⟩ => ⟨S850000x1, .i32⟩
  | .hbm, ⟨113, _⟩ => ⟨S50000x64, .f32⟩
  | .hbm, ⟨114, _⟩ => ⟨S1x64, .f32⟩
  | .hbm, ⟨115, _⟩ => ⟨S50000x64, .f32⟩
  | .hbm, ⟨116, _⟩ => ⟨S50000x64, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v15 : Ref sig .tc := ⟨.hbm, 30, rfl⟩
abbrev main_c : Ref sig .tc := ⟨.hbm, 31, rfl⟩
abbrev main_v16 : Ref sig .tc := ⟨.hbm, 32, rfl⟩
abbrev main_v17 : Ref sig .tc := ⟨.hbm, 33, rfl⟩
abbrev main_c_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_4 : Ref sig .tc := ⟨.hbm, 41, rfl⟩
abbrev main_v24 : Ref sig .tc := ⟨.hbm, 42, rfl⟩
abbrev main_v25 : Ref sig .tc := ⟨.hbm, 43, rfl⟩
abbrev main_c_5 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_6 : Ref sig .tc := ⟨.hbm, 53, rfl⟩
abbrev main_v34 : Ref sig .tc := ⟨.hbm, 54, rfl⟩
abbrev main_v35 : Ref sig .tc := ⟨.hbm, 55, rfl⟩
abbrev main_c_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_c_10 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_11 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_12 : Ref sig .tc := ⟨.hbm, 99, rfl⟩
abbrev main_v70 : Ref sig .tc := ⟨.hbm, 100, rfl⟩
abbrev main_v71 : Ref sig .tc := ⟨.hbm, 101, rfl⟩
abbrev main_c_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x256_S256x128_S50000x128_1_0_0_1_n_n_wf : DotDims.WF S50000x256 S256x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Layer1.lean ====
/-
  The first layer's projection, as one function of whole arrays.

  The grid has 25 points; point t reads rows 2000·t … 2000·t + 1999 of the [50000, 256] input and the whole
  [256, 128] weight, and writes rows 2000·t … 2000·t + 1999 of the [50000, 128] output: entry (p, q) of the block is
  the sum over k < 256 of (input row 2000·t + p at k) · (weight row k at q). Over the extended reals the change of
  float format on the way into the product is the identity and the accumulator starts at zero, so the block is the
  plain sum. The 25 row blocks tile the output, hence the output array ends at
      out (r, q) = Σ_{k < 256} input (r, k) · weight (k, q)        for every r < 50000, q < 128,
  whatever the contents the region finds in its arrays.
-/
import proofs.«104990_j66194035966386_1_alg».proof.Proof.Gen.KernelIdeal.Frame
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Layer1

open Cert.KernelIdeal Cert.KernelIdeal.Gen

/-- Rows of `A` against columns of `W`: entry (r, q) is Σ_k A (r, k) · W (k, q). -/
def rowsTimes (A : S50000x256.Idx → EReal) (W : S256x128.Idx → EReal) : S50000x128.Idx → EReal :=
  fun i => ∑ k : Fin 256, A (ix2 (⟨(i 0).val, (i 0).isLt⟩ : Fin 50000) k) * W (ix2 k (⟨(i 1).val, (i 1).isLt⟩ : Fin 128))

theorem zeroOffsets : (![0, 0] : Fin 2 → Nat) = fun _ => 0 := funext fun a => by fin_cases a <;> rfl

/-- The product's dimension record: contraction of the left operand's axis 1 with the right operand's axis 0. -/
abbrev D : DotDims S2000x256 S256x128 S2000x128 := dot_S2000x256_S256x128_S2000x128_1_0_0_1_n_n

theorem lhs_row (i : S2000x128.Idx) (q : D.contr.Idx) : (D.lhsIdx i q 0).val = (i 0).val := by
  unfold DotDims.lhsIdx
  rw [dif_neg (show ¬(0 : Fin S2000x256.rank) ∈ D.lhsBatch by decide), dif_pos (show (0 : Fin S2000x256.rank) ∈ D.lhsNonContracting by decide)]
  rfl
theorem lhs_contr (i : S2000x128.Idx) (q : D.contr.Idx) : (D.lhsIdx i q 1).val = (q ⟨0, by decide⟩).val :=
  D.lhsIdx_val_of_single rfl i q
theorem rhs_contr (i : S2000x128.Idx) (q : D.contr.Idx) : (D.rhsIdx i q 0).val = (q ⟨0, by decide⟩).val :=
  D.rhsIdx_val_of_single rfl i q
theorem rhs_col (i : S2000x128.Idx) (q : D.contr.Idx) : (D.rhsIdx i q 1).val = (i 1).val := by
  unfold DotDims.rhsIdx
  rw [dif_neg (show ¬(1 : Fin S256x128.rank) ∈ D.rhsBatch by decide), dif_pos (show (1 : Fin S256x128.rank) ∈ D.rhsNonContracting by decide)]
  rfl

/-- Entry (p, q) of what one point computes from its two loaded blocks: Σ_k x (p, k) · w (k, q). -/
theorem block_entry (x : Vec Ideal S2000x256 .f32) (w : Vec Ideal S256x128 .f32) (p : Fin 2000) (q : Fin 128) :
    k0_pay1 x w (ix2 p q) = ∑ k : Fin 256, x (ix2 p k) * w (ix2 k q) := by
  unfold k0_pay1
  refine (Ideal.matmul_constant_zero_apply D none _ _ (ix2 p q)).trans ?_
  rw [← Equiv.sum_comp (contrEquiv1 D 256 rfl rfl).symm]
  refine Finset.sum_congr rfl fun k _ => ?_
  have hk := contrEquiv1_symm_val D 256 rfl rfl k
  have el : D.lhsIdx (ix2 p q) ((contrEquiv1 D 256 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 256 rfl rfl).symm k) = ix2 k q := funext fun a => Fin.ext (by
    match a with
    | ⟨0, _⟩ => exact (rhs_contr _ _).trans hk
    | ⟨1, _⟩ => exact rhs_col _ _)
  show x (D.lhsIdx (ix2 p q) ((contrEquiv1 D 256 rfl rfl).symm k)) * w (D.rhsIdx (ix2 p q) ((contrEquiv1 D 256 rfl rfl).symm k)) = _
  rw [el, er]

variable (V : (c : Dev nD) → (b : Ref sig .tc) → Buf (Elt Ideal) ((c : Thread nD τ).loc b))

/-- Where each window's block sits at point t: the input rows and the output rows move with t, the weight stays. -/
theorem block_positions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The input block at point t is rows 2000·t … of the input array. -/
theorem input_block (c : Dev nD) (t : Fin cfg0.N) (y : S2000x256.Idx) (i : S50000x256.Idx)
    (h0 : (i 0).val = t.val * 2000 + (y 0).val) (h1 : (i 1).val = (y 1).val) :
    (iblk0 V c 0 t : Vec Ideal S2000x256 .f32) y = (V c main_arg0 : S50000x256.Idx → EReal) i := by
  obtain ⟨e0, e1, -⟩ := block_positions t
  unfold iblk0
  rw [View.read_apply]
  show (V c main_arg0 : S50000x256.Idx → EReal) _ = _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 256 + 1 * (y 1).val = (i 1).val; rw [e1, h1]; omega

/-- The weight block at every point is the whole weight array. -/
theorem weight_block (c : Dev nD) (t : Fin cfg0.N) (y : S256x128.Idx) :
    (iblk0 V c 1 t : Vec Ideal S256x128 .f32) y = (V c main_arg3 : S256x128.Idx → EReal) y := by
  obtain ⟨-, -, e0, e1, -⟩ := block_positions t
  unfold iblk0
  rw [View.read_apply]
  show (V c main_arg3 : S256x128.Idx → EReal) _ = _
  congr 1
  funext a
  apply Fin.ext
  match a with
  | ⟨0, _⟩ => show win0_1.index t (0 : Fin 2) * 256 + 1 * (y 0).val = (y 0).val; rw [e0]; omega
  | ⟨1, _⟩ => show win0_1.index t (1 : Fin 2) * 128 + 1 * (y 1).val = (y 1).val; rw [e1]; omega

/-- What point t computes, at block entry j, is `rowsTimes` of the arrays at row 2000·t + j₀, column j₁. -/
theorem point_entry (c : Dev nD) (t : Fin cfg0.N) (j : S2000x128.Idx) (i : S50000x128.Idx)
    (h0 : (i 0).val = t.val * 2000 + (j 0).val) (h1 : (i 1).val = (j 1).val) :
    k0_pay1 (iblk0 V c 0 t) (iblk0 V c 1 t) j = rowsTimes (V c main_arg0) (V c main_arg3) i := by
  obtain ⟨p, q, rfl⟩ : ∃ (p : Fin 2000) (q : Fin 128), j = ix2 p q := ⟨j 0, j 1, eq_ix2 j⟩
  refine (block_entry (iblk0 V c 0 t) (iblk0 V c 1 t) p q).trans ?_
  unfold rowsTimes
  refine Finset.sum_congr rfl fun k _ => ?_
  have hx := input_block V c t (ix2 p k) (ix2 (⟨(i 0).val, (i 0).isLt⟩ : Fin 50000) k) h0 rfl
  have hw := weight_block V c t (ix2 k q)
  have hq : (ix2 k q : S256x128.Idx) = ix2 k (⟨(i 1).val, (i 1).isLt⟩ : Fin 128) :=
    funext fun a => Fin.ext (by match a with | ⟨0, _⟩ => rfl | ⟨1, _⟩ => exact h1.symm)
  rw [hx, hw, hq]

/-- An index of the output array is in point t's block iff each coordinate is in the block's range on its axis. -/
theorem mem_block (t : Fin cfg0.N) (i : S50000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v32).slice (win0_2.rect t)).set ↔ _
  rw [View.set_slice_whole, Rect.mem_set_unit]
  exact Iff.rfl

/-- What point t writes back is block t of `rowsTimes` of the arrays the region finds. -/
theorem written_block (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero zeroOffsets]
  simp only [View.ld_unit_zero (S := S2000x256) zeroOffsets, View.ld_unit_zero (S := S256x128) zeroOffsets]
  obtain ⟨-, -, -, -, e0, e1⟩ := block_positions t
  funext j
  show k0_pay1 (iblk0 V c 0 t) (iblk0 V c 1 t) j = rowsTimes (V c main_arg0) (V c main_arg3) (((cfg0.win 2).blk t).view.emb j)
  refine point_entry V c t j _ ?_ ?_
  · show win0_2.index t (0 : Fin 2) * 2000 + 1 * (j 0).val = t.val * 2000 + (j 0).val; rw [e0]; omega
  · show win0_2.index t (1 : Fin 2) * 128 + 1 * (j 1).val = (j 1).val; rw [e1]; omega

/-- Every row of the output lies in the block of the point `row / 2000`. -/
theorem covered (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 25 := N_0
  have ht : (i 0).val / 2000 < cfg0.N := by rw [hN]; omega
  obtain ⟨-, -, -, -, e0, e1⟩ := block_positions ⟨(i 0).val / 2000, ht⟩
  refine ⟨⟨(i 0).val / 2000, ht⟩, flush0_2 _, ?_⟩
  rw [mem_block]
  intro a
  match a with
  | ⟨0, _⟩ =>
    show win0_2.index ⟨(i 0).val / 2000, ht⟩ (0 : Fin 2) * 2000 ≤ (i 0).val ∧ (i 0).val < win0_2.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win0_2.index ⟨(i 0).val / 2000, ht⟩ (1 : Fin 2) * 128 ≤ (i 1).val ∧ (i 1).val < win0_2.index ⟨(i 0).val / 2000, ht⟩ (1 : Fin 2) * 128 + 128
    rw [e1]; omega

/-- The output array after the region: `rowsTimes` of the input and weight arrays as the region found them. -/
theorem value (c : Dev nD) : (dat0 V c).arrAt 2 cfg0.N = rowsTimes (V c main_arg0) (V c main_arg3) :=
  (dat0 V c).arrAt_eq_of_cover 2 (rowsTimes (V c main_arg0) (V c main_arg3)) (fun t _ => written_block V c t) covered

end Cert.KernelIdeal.Layer1

end
-- ==== Proof.Layer2.lean ====
/-
  The second layer's projection, with the first layer's bias and cut-off folded in, as one function of whole arrays.

  The grid has 25 points; point t reads rows 2000·t … 2000·t + 1999 of the [50000, 128] input, the one-row
  [1, 128] bias and the whole [128, 128] weight, and writes rows 2000·t … 2000·t + 1999 of the [50000, 128] output:
  entry (p, q) of the block is the sum over k < 128 of max (input (2000·t + p, k) + bias (0, k), 0) · weight (k, q).
  Over the extended reals the casts of a shape to itself and the change of float format on the way into the product
  are the identity, the bias row is the same for every row, and the accumulator starts at zero. The 25 row blocks
  tile the output, hence the output array ends at
      out (r, q) = Σ_{k < 128} max (input (r, k) + bias (0, k), 0) · weight (k, q)      for every r < 50000, q < 128,
  whatever the contents the region finds in its arrays. The zero under the max is kept as the float word it is printed as.
-/
import proofs.«104990_j66194035966386_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Layer2

open Cert.KernelIdeal Cert.KernelIdeal.Gen

/-- Rows of `A`, shifted by the bias row and cut off below at zero, against columns of `W`:
    entry (r, q) is Σ_k max (A (r, k) + b (0, k)) 0 · W (k, q). -/
def biasReluTimes (A : S50000x128.Idx → EReal) (b : S1x128.Idx → EReal) (W : S128x128.Idx → EReal) : S50000x128.Idx → EReal :=
  fun i => ∑ k : Fin 128, max (A (ix2 (⟨(i 0).val, (i 0).isLt⟩ : Fin 50000) k) + b (ix2 (0 : Fin 1) k)) (Ideal.ofBits .f32 0x00000000#32)
    * W (ix2 k (⟨(i 1).val, (i 1).isLt⟩ : Fin 128))

theorem zeroOffsets : (![0, 0] : Fin 2 → Nat) = fun _ => 0 := funext fun a => by fin_cases a <;> rfl

/-- The product's dimension record: contraction of the left operand's axis 1 with the right operand's axis 0. -/
abbrev D : DotDims S2000x128 S128x128 S2000x128 := dot_S2000x128_S128x128_S2000x128_1_0_0_1_n_n

theorem lhs_row (i : S2000x128.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs_contr (i : S2000x128.Idx) (q : D.contr.Idx) : (D.lhsIdx i q 1).val = (q ⟨0, by decide⟩).val :=
  D.lhsIdx_val_of_single rfl i q
theorem rhs_contr (i : S2000x128.Idx) (q : D.contr.Idx) : (D.rhsIdx i q 0).val = (q ⟨0, by decide⟩).val :=
  D.rhsIdx_val_of_single rfl i q
theorem rhs_col (i : S2000x128.Idx) (q : D.contr.Idx) : (D.rhsIdx i q 1).val = (i 1).val := by
  unfold DotDims.rhsIdx
  rw [dif_neg (show ¬(1 : Fin S128x128.rank) ∈ D.rhsBatch by decide), dif_pos (show (1 : Fin S128x128.rank) ∈ D.rhsNonContracting by decide)]
  rfl

/-- The left factor at (p, k): the input entry plus the bias row's entry, cut off below at zero. -/
theorem activation_entry (x : Vec Ideal S2000x128 .f32) (b : Vec Ideal S1x128 .f32) (p : Fin 2000) (k : Fin 128) :
    (maximumf (addf (shapeCast S2000x128 x shapeCasts_S2000x128_S2000x128)
        (broadcastTo S2000x128 (shapeCast S1x128 (shapeCast S1x128 b shapeCasts_S1x128_S1x128) shapeCasts_S1x128_S1x128) broadcasts_S1x128_S2000x128))
      (broadcast S2000x128 (Scalar.ofBits (F := Ideal) .f32 0x00000000#32)) : FVec Ideal S2000x128 .f32) (ix2 p k)
    = max (x (ix2 p k) + b (ix2 (0 : Fin 1) k)) (Ideal.ofBits .f32 0x00000000#32) := by
  rw [shapeCast_self, shapeCast_self, shapeCast_self]
  show max (x (ix2 p k) + broadcastTo S2000x128 b broadcasts_S1x128_S2000x128 (ix2 p k)) (Ideal.ofBits .f32 0x00000000#32) = _
  rw [broadcastTo_1b_ab_apply]

/-- Entry (p, q) of what one point computes from its three loaded blocks. -/
theorem block_entry (x : Vec Ideal S2000x128 .f32) (b : Vec Ideal S1x128 .f32) (w : Vec Ideal S128x128 .f32) (p : Fin 2000) (q : Fin 128) :
    k1_pay1 x b w (ix2 p q) = ∑ k : Fin 128, max (x (ix2 p k) + b (ix2 (0 : Fin 1) k)) (Ideal.ofBits .f32 0x00000000#32) * w (ix2 k q) := by
  unfold k1_pay1
  refine (Ideal.matmul_constant_zero_apply D none _ _ (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 128 rfl rfl).symm k) = ix2 k q := funext fun a => Fin.ext (by
    match a with
    | ⟨0, _⟩ => exact (rhs_contr _ _).trans hk
    | ⟨1, _⟩ => exact rhs_col _ _)
  rw [el, er]
  exact congrArg (· * w (ix2 k q)) (activation_entry x b p k)

variable (V : (c : Dev nD) → (b : Ref sig .tc) → Buf (Elt Ideal) ((c : Thread nD τ).loc b))

/-- Where each window's block sits at point t: the input rows and the output rows move with t, bias and weight stay. -/
theorem block_positions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The input block at point t is rows 2000·t … of the input array. -/
theorem input_block (c : Dev nD) (t : Fin cfg1.N) (y : S2000x128.Idx) (i : S50000x128.Idx)
    (h0 : (i 0).val = t.val * 2000 + (y 0).val) (h1 : (i 1).val = (y 1).val) :
    (iblk1 V c 0 t : Vec Ideal S2000x128 .f32) y = (V c main_v45 : S50000x128.Idx → EReal) i := by
  obtain ⟨e0, e1, -⟩ := block_positions t
  unfold iblk1
  rw [View.read_apply]
  show (V c main_v45 : S50000x128.Idx → EReal) _ = _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The bias block at every point is the whole one-row bias array. -/
theorem bias_block (c : Dev nD) (t : Fin cfg1.N) (y : S1x128.Idx) :
    (iblk1 V c 1 t : Vec Ideal S1x128 .f32) y = (V c main_v46 : S1x128.Idx → EReal) y := by
  obtain ⟨-, -, e0, e1, -⟩ := block_positions t
  unfold iblk1
  rw [View.read_apply]
  show (V c main_v46 : S1x128.Idx → EReal) _ = _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The weight block at every point is the whole weight array. -/
theorem weight_block (c : Dev nD) (t : Fin cfg1.N) (y : S128x128.Idx) :
    (iblk1 V c 2 t : Vec Ideal S128x128 .f32) y = (V c main_arg5 : S128x128.Idx → EReal) y := by
  obtain ⟨-, -, -, -, e0, e1, -⟩ := block_positions t
  unfold iblk1
  rw [View.read_apply]
  show (V c main_arg5 : S128x128.Idx → EReal) _ = _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- What point t computes, at block entry j, is `biasReluTimes` of the arrays at row 2000·t + j₀, column j₁. -/
theorem point_entry (c : Dev nD) (t : Fin cfg1.N) (j : S2000x128.Idx) (i : S50000x128.Idx)
    (h0 : (i 0).val = t.val * 2000 + (j 0).val) (h1 : (i 1).val = (j 1).val) :
    k1_pay1 (iblk1 V c 0 t) (iblk1 V c 1 t) (iblk1 V c 2 t) j = biasReluTimes (V c main_v45) (V c main_v46) (V c main_arg5) i := by
  obtain ⟨p, q, rfl⟩ : ∃ (p : Fin 2000) (q : Fin 128), j = ix2 p q := ⟨j 0, j 1, eq_ix2 j⟩
  refine (block_entry (iblk1 V c 0 t) (iblk1 V c 1 t) (iblk1 V c 2 t) p q).trans ?_
  unfold biasReluTimes
  refine Finset.sum_congr rfl fun k _ => ?_
  have hx := input_block V c t (ix2 p k) (ix2 (⟨(i 0).val, (i 0).isLt⟩ : Fin 50000) k) h0 rfl
  have hb := bias_block V c t (ix2 (0 : Fin 1) k)
  have hw := weight_block V c t (ix2 k q)
  have hq : (ix2 k q : S128x128.Idx) = ix2 k (⟨(i 1).val, (i 1).isLt⟩ : Fin 128) :=
    funext fun a => Fin.ext (by match a with | ⟨0, _⟩ => rfl | ⟨1, _⟩ => exact h1.symm)
  rw [hx, hb, hw, hq]

/-- An index of the output array is in point t's block iff each coordinate is in the block's range on its axis. -/
theorem mem_block (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v47).slice (win1_3.rect t)).set ↔ _
  rw [View.set_slice_whole, Rect.mem_set_unit]
  exact Iff.rfl

/-- What point t writes back is block t of `biasReluTimes` of the arrays the region finds. -/
theorem written_block (c : Dev nD) (t : Fin cfg1.N) :
    (dat1 V c).flushed 3 t = ((cfg1.win 3).blk t).view.read (Elt Ideal) (biasReluTimes (V c main_v45) (V c main_v46) (V c main_arg5)) := by
  show (cfg1.win 3).cut (grid1.coords t) ((dat1 V c).after 3 t) = _
  rw [after1_3]
  unfold out1_3
  rw [View.canon_unit_zero zeroOffsets]
  simp only [View.ld_unit_zero (S := S2000x128) zeroOffsets, View.ld_unit_zero (S := S1x128) zeroOffsets, View.ld_unit_zero (S := S128x128) zeroOffsets]
  obtain ⟨-, -, -, -, -, -, e0, e1⟩ := block_positions t
  funext j
  show k1_pay1 (iblk1 V c 0 t) (iblk1 V c 1 t) (iblk1 V c 2 t) j = biasReluTimes (V c main_v45) (V c main_v46) (V c main_arg5) (((cfg1.win 3).blk t).view.emb j)
  refine point_entry V c t j _ ?_ ?_
  · show win1_3.index t (0 : Fin 2) * 2000 + 1 * (j 0).val = t.val * 2000 + (j 0).val; rw [e0]; omega
  · show win1_3.index t (1 : Fin 2) * 128 + 1 * (j 1).val = (j 1).val; rw [e1]; omega

/-- Every row of the output lies in the block of the point `row / 2000`. -/
theorem covered (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  have hN : cfg1.N = 25 := N_1
  have ht : (i 0).val / 2000 < cfg1.N := by rw [hN]; omega
  obtain ⟨-, -, -, -, -, -, e0, e1⟩ := block_positions ⟨(i 0).val / 2000, ht⟩
  refine ⟨⟨(i 0).val / 2000, ht⟩, flush1_3 _, ?_⟩
  rw [mem_block]
  intro a
  match a with
  | ⟨0, _⟩ =>
    show win1_3.index ⟨(i 0).val / 2000, ht⟩ (0 : Fin 2) * 2000 ≤ (i 0).val ∧ (i 0).val < win1_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, ht⟩ (1 : Fin 2) * 128 ≤ (i 1).val ∧ (i 1).val < win1_3.index ⟨(i 0).val / 2000, ht⟩ (1 : Fin 2) * 128 + 128
    rw [e1]; omega

/-- The output array after the region: `biasReluTimes` of the input, bias and weight arrays as the region found them. -/
theorem value (c : Dev nD) : (dat1 V c).arrAt 3 cfg1.N = biasReluTimes (V c main_v45) (V c main_v46) (V c main_arg5) :=
  (dat1 V c).arrAt_eq_of_cover 3 (biasReluTimes (V c main_v45) (V c main_v46) (V c main_arg5)) (fun t _ => written_block V c t) covered

end Cert.KernelIdeal.Layer2

end
-- ==== Proof.Layer3.lean ====
/-
  The third layer's projection, with the second layer's bias and cut-off folded in, as one function of whole arrays.

  The grid has 25 points; point t reads rows 2000·t … 2000·t + 1999 of the [50000, 128] input, the one-row
  [1, 128] bias and the whole [128, 64] weight, and writes rows 2000·t … 2000·t + 1999 of the [50000, 64] output:
  entry (p, q) of the block is the sum over k < 128 of max (input (2000·t + p, k) + bias (0, k), 0) · weight (k, q).
  Over the extended reals the casts of a shape to itself and the change of float format on the way into the product
  are the identity, the bias row is the same for every row, and the accumulator starts at zero. The 25 row blocks
  tile the output, hence the output array ends at
      out (r, q) = Σ_{k < 128} max (input (r, k) + bias (0, k), 0) · weight (k, q)      for every r < 50000, q < 64,
  whatever the contents the region finds in its arrays. The zero under the max is kept as the float word it is printed as.
-/
import proofs.«104990_j66194035966386_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem
open Idealize.ShloMosaic.Pipeline (Dat)
open Idealize.ShloMosaic.ValueIdx

namespace Cert.KernelIdeal.Layer3

open Cert.KernelIdeal Cert.KernelIdeal.Gen

/-- Rows of `A`, shifted by the bias row and cut off below at zero, against columns of `W`:
    entry (r, q) is Σ_k max (A (r, k) + b (0, k)) 0 · W (k, q). -/
def biasReluTimes (A : S50000x128.Idx → EReal) (b : S1x128.Idx → EReal) (W : S128x64.Idx → EReal) : S50000x64.Idx → EReal :=
  fun i => ∑ k : Fin 128, max (A (ix2 (⟨(i 0).val, (i 0).isLt⟩ : Fin 50000) k) + b (ix2 (0 : Fin 1) k)) (Ideal.ofBits .f32 0x00000000#32)
    * W (ix2 k (⟨(i 1).val, (i 1).isLt⟩ : Fin 64))

theorem zeroOffsets : (![0, 0] : Fin 2 → Nat) = fun _ => 0 := funext fun a => by fin_cases a <;> rfl

/-- The product's dimension record: contraction of the left operand's axis 1 with the right operand's axis 0. -/
abbrev D : DotDims S2000x128 S128x64 S2000x64 := dot_S2000x128_S128x64_S2000x64_1_0_0_1_n_n

theorem lhs_row (i : S2000x64.Idx) (q : D.contr.Idx) : (D.lhsIdx i q 0).val = (i 0).val := by
  unfold DotDims.lhsIdx
  rw [dif_neg (show ¬(0 : Fin S2000x128.rank) ∈ D.lhsBatch by decide), dif_pos (show (0 : Fin S2000x128.rank) ∈ D.lhsNonContracting by decide)]
  rfl
theorem lhs_contr (i : S2000x64.Idx) (q : D.contr.Idx) : (D.lhsIdx i q 1).val = (q ⟨0, by decide⟩).val :=
  D.lhsIdx_val_of_single rfl i q
theorem rhs_contr (i : S2000x64.Idx) (q : D.contr.Idx) : (D.rhsIdx i q 0).val = (q ⟨0, by decide⟩).val :=
  D.rhsIdx_val_of_single rfl i q
theorem rhs_col (i : S2000x64.Idx) (q : D.contr.Idx) : (D.rhsIdx i q 1).val = (i 1).val := by
  unfold DotDims.rhsIdx
  rw [dif_neg (show ¬(1 : Fin S128x64.rank) ∈ D.rhsBatch by decide), dif_pos (show (1 : Fin S128x64.rank) ∈ D.rhsNonContracting by decide)]
  rfl

/-- The left factor at (p, k): the input entry plus the bias row's entry, cut off below at zero. -/
theorem activation_entry (x : Vec Ideal S2000x128 .f32) (b : Vec Ideal S1x128 .f32) (p : Fin 2000) (k : Fin 128) :
    (maximumf (addf (shapeCast S2000x128 x shapeCasts_S2000x128_S2000x128)
        (broadcastTo S2000x128 (shapeCast S1x128 (shapeCast S1x128 b shapeCasts_S1x128_S1x128) shapeCasts_S1x128_S1x128) broadcasts_S1x128_S2000x128))
      (broadcast S2000x128 (Scalar.ofBits (F := Ideal) .f32 0x00000000#32)) : FVec Ideal S2000x128 .f32) (ix2 p k)
    = max (x (ix2 p k) + b (ix2 (0 : Fin 1) k)) (Ideal.ofBits .f32 0x00000000#32) := by
  rw [shapeCast_self, shapeCast_self, shapeCast_self]
  show max (x (ix2 p k) + broadcastTo S2000x128 b broadcasts_S1x128_S2000x128 (ix2 p k)) (Ideal.ofBits .f32 0x00000000#32) = _
  rw [broadcastTo_1b_ab_apply]

/-- Entry (p, q) of what one point computes from its three loaded blocks. -/
theorem block_entry (x : Vec Ideal S2000x128 .f32) (b : Vec Ideal S1x128 .f32) (w : Vec Ideal S128x64 .f32) (p : Fin 2000) (q : Fin 64) :
    k2_pay1 x b w (ix2 p q) = ∑ k : Fin 128, max (x (ix2 p k) + b (ix2 (0 : Fin 1) k)) (Ideal.ofBits .f32 0x00000000#32) * w (ix2 k q) := by
  unfold k2_pay1
  refine (Ideal.matmul_constant_zero_apply D none _ _ (ix2 p q)).trans ?_
  rw [← Equiv.sum_comp (contrEquiv1 D 128 rfl rfl).symm]
  refine Finset.sum_congr rfl fun k _ => ?_
  have hk := contrEquiv1_symm_val D 128 rfl rfl k
  have el : D.lhsIdx (ix2 p q) ((contrEquiv1 D 128 rfl rfl).symm k) = ix2 p k := funext fun a => Fin.ext (by
    match a with
    | ⟨0, _⟩ => exact lhs_row _ _
    | ⟨1, _⟩ => exact (lhs_contr _ _).trans hk)
  have er : D.rhsIdx (ix2 p q) ((contrEquiv1 D 128 rfl rfl).symm k) = ix2 k q := funext fun a => Fin.ext (by
    match a with
    | ⟨0, _⟩ => exact (rhs_contr _ _).trans hk
    | ⟨1, _⟩ => exact rhs_col _ _)
  rw [el, er]
  exact congrArg (· * w (ix2 k q)) (activation_entry x b p k)

variable (V : (c : Dev nD) → (b : Ref sig .tc) → Buf (Elt Ideal) ((c : Thread nD τ).loc b))

/-- Where each window's block sits at point t: the input rows and the output rows move with t, bias and weight stay. -/
theorem block_positions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The input block at point t is rows 2000·t … of the input array. -/
theorem input_block (c : Dev nD) (t : Fin cfg2.N) (y : S2000x128.Idx) (i : S50000x128.Idx)
    (h0 : (i 0).val = t.val * 2000 + (y 0).val) (h1 : (i 1).val = (y 1).val) :
    (iblk2 V c 0 t : Vec Ideal S2000x128 .f32) y = (V c main_v60 : S50000x128.Idx → EReal) i := by
  obtain ⟨e0, e1, -⟩ := block_positions t
  unfold iblk2
  rw [View.read_apply]
  show (V c main_v60 : S50000x128.Idx → EReal) _ = _
  congr 1
  funext a
  apply Fin.ext
  match a with
  | ⟨0, _⟩ => show win2_0.index t (0 : Fin 2) * 2000 + 1 * (y 0).val = (i 0).val; rw [e0, h0]; omega
  | ⟨1, _⟩ => show win2_0.index t (1 : Fin 2) * 128 + 1 * (y 1).val = (i 1).val; rw [e1, h1]; omega

/-- The bias block at every point is the whole one-row bias array. -/
theorem bias_block (c : Dev nD) (t : Fin cfg2.N) (y : S1x128.Idx) :
    (iblk2 V c 1 t : Vec Ideal S1x128 .f32) y = (V c main_v61 : S1x128.Idx → EReal) y := by
  obtain ⟨-, -, e0, e1, -⟩ := block_positions t
  unfold iblk2
  rw [View.read_apply]
  show (V c main_v61 : S1x128.Idx → EReal) _ = _
  congr 1
  funext a
  apply Fin.ext
  match a with
  | ⟨0, _⟩ => show win2_1.index t (0 : Fin 2) * 1 + 1 * (y 0).val = (y 0).val; rw [e0]; omega
  | ⟨1, _⟩ => show win2_1.index t (1 : Fin 2) * 128 + 1 * (y 1).val = (y 1).val; rw [e1]; omega

/-- The weight block at every point is the whole weight array. -/
theorem weight_block (c : Dev nD) (t : Fin cfg2.N) (y : S128x64.Idx) :
    (iblk2 V c 2 t : Vec Ideal S128x64 .f32) y = (V c main_arg7 : S128x64.Idx → EReal) y := by
  obtain ⟨-, -, -, -, e0, e1, -⟩ := block_positions t
  unfold iblk2
  rw [View.read_apply]
  show (V c main_arg7 : S128x64.Idx → EReal) _ = _
  congr 1
  funext a
  apply Fin.ext
  match a with
  | ⟨0, _⟩ => show win2_2.index t (0 : Fin 2) * 128 + 1 * (y 0).val = (y 0).val; rw [e0]; omega
  | ⟨1, _⟩ => show win2_2.index t (1 : Fin 2) * 64 + 1 * (y 1).val = (y 1).val; rw [e1]; omega

/-- What point t computes, at block entry j, is `biasReluTimes` of the arrays at row 2000·t + j₀, column j₁. -/
theorem point_entry (c : Dev nD) (t : Fin cfg2.N) (j : S2000x64.Idx) (i : S50000x64.Idx)
    (h0 : (i 0).val = t.val * 2000 + (j 0).val) (h1 : (i 1).val = (j 1).val) :
    k2_pay1 (iblk2 V c 0 t) (iblk2 V c 1 t) (iblk2 V c 2 t) j = biasReluTimes (V c main_v60) (V c main_v61) (V c main_arg7) i := by
  obtain ⟨p, q, rfl⟩ : ∃ (p : Fin 2000) (q : Fin 64), j = ix2 p q := ⟨j 0, j 1, eq_ix2 j⟩
  refine (block_entry (iblk2 V c 0 t) (iblk2 V c 1 t) (iblk2 V c 2 t) p q).trans ?_
  unfold biasReluTimes
  refine Finset.sum_congr rfl fun k _ => ?_
  have hx := input_block V c t (ix2 p k) (ix2 (⟨(i 0).val, (i 0).isLt⟩ : Fin 50000) k) h0 rfl
  have hb := bias_block V c t (ix2 (0 : Fin 1) k)
  have hw := weight_block V c t (ix2 k q)
  have hq : (ix2 k q : S128x64.Idx) = ix2 k (⟨(i 1).val, (i 1).isLt⟩ : Fin 64) :=
    funext fun a => Fin.ext (by match a with | ⟨0, _⟩ => rfl | ⟨1, _⟩ => exact h1.symm)
  rw [hx, hb, hw, hq]

/-- An index of the output array is in point t's block iff each coordinate is in the block's range on its axis. -/
theorem mem_block (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v62).slice (win2_3.rect t)).set ↔ _
  rw [View.set_slice_whole, Rect.mem_set_unit]
  exact Iff.rfl

/-- What point t writes back is block t of `biasReluTimes` of the arrays the region finds. -/
theorem written_block (c : Dev nD) (t : Fin cfg2.N) :
    (dat2 V c).flushed 3 t = ((cfg2.win 3).blk t).view.read (Elt Ideal) (biasReluTimes (V c main_v60) (V c main_v61) (V c main_arg7)) := by
  show (cfg2.win 3).cut (grid2.coords t) ((dat2 V c).after 3 t) = _
  rw [after2_3]
  unfold out2_3
  rw [View.canon_unit_zero zeroOffsets]
  simp only [View.ld_unit_zero (S := S2000x128) zeroOffsets, View.ld_unit_zero (S := S1x128) zeroOffsets, View.ld_unit_zero (S := S128x64) zeroOffsets]
  obtain ⟨-, -, -, -, -, -, e0, e1⟩ := block_positions t
  funext j
  show k2_pay1 (iblk2 V c 0 t) (iblk2 V c 1 t) (iblk2 V c 2 t) j = biasReluTimes (V c main_v60) (V c main_v61) (V c main_arg7) (((cfg2.win 3).blk t).view.emb j)
  refine point_entry V c t j _ ?_ ?_
  · show win2_3.index t (0 : Fin 2) * 2000 + 1 * (j 0).val = t.val * 2000 + (j 0).val; rw [e0]; omega
  · show win2_3.index t (1 : Fin 2) * 64 + 1 * (j 1).val = (j 1).val; rw [e1]; omega

/-- Every row of the output lies in the block of the point `row / 2000`. -/
theorem covered (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  have ht : (i 0).val / 2000 < cfg2.N := by rw [hN]; omega
  obtain ⟨-, -, -, -, -, -, e0, e1⟩ := block_positions ⟨(i 0).val / 2000, ht⟩
  refine ⟨⟨(i 0).val / 2000, ht⟩, flush2_3 _, ?_⟩
  rw [mem_block]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e0]; show (i 0).val / 2000 * 2000 ≤ (i 0).val ∧ (i 0).val < (i 0).val / 2000 * 2000 + 2000; omega
  | ⟨1, _⟩ =>
    show win2_3.index ⟨(i 0).val / 2000, ht⟩ (1 : Fin 2) * 64 ≤ (i 1).val ∧ (i 1).val < win2_3.index ⟨(i 0).val / 2000, ht⟩ (1 : Fin 2) * 64 + 64
    rw [e1]; omega

/-- The output array after the region: `biasReluTimes` of the input, bias and weight arrays as the region found them. -/
theorem value (c : Dev nD) : (dat2 V c).arrAt 3 cfg2.N = biasReluTimes (V c main_v60) (V c main_v61) (V c main_arg7) :=
  (dat2 V c).arrAt_eq_of_cover 3 (biasReluTimes (V c main_v60) (V c main_v61) (V c main_arg7)) (fun t _ => written_block V c t) covered

end Cert.KernelIdeal.Layer3

end
-- ==== Proof.Bridge.lean ====
/-
  Each projection, as the whole-array function the blocks were shown to tile, is the matching stage of the reference.

  The reference computes a layer as: add the bias (a vector, read as one row and repeated over all rows), take the
  maximum with a zero array, and contract the result's axis 1 with the weight's axis 0 in one product over the whole
  [50000, ·] array. Read at an index (r, q) this is Σ_k max (input (r, k) + bias (k), 0) · weight (k, q) — the same
  sum the projection's blocks compute row block by row block, the one-row bias array [1, 128] being the bias vector
  [128] with a unit axis in front. For the first layer there is no bias and no cut-off: both sides are
  Σ_k input (r, k) · weight (k, q).
-/
import proofs.«104990_j66194035966386_1_alg».proof.Proof.Layer1
import proofs.«104990_j66194035966386_1_alg».proof.Proof.Layer2
import proofs.«104990_j66194035966386_1_alg».proof.Proof.Layer3
import proofs.«104990_j66194035966386_1_alg».proof.Proof.Gen.ReferenceIdeal.Read
import Idealize.ShloMosaic.Lib.ValueIdx
import Idealize.ShloMosaic.Lib.ValueLayout

noncomputable section

open Idealize.ShloMosaic Idealize.ShloMosaic.ValueIdx

namespace Cert.Bridge

open Cert.ReferenceIdeal.Read

/-- The first projection is the reference's first product. -/
theorem layer1_eq (A : (⟨Cert.ReferenceIdeal.S50000x256, .f32⟩ : BufTy).Contents (Elt Ideal)) (W : (⟨Cert.ReferenceIdeal.S256x128, .f32⟩ : BufTy).Contents (Elt Ideal)) :
    Cert.KernelIdeal.Layer1.rowsTimes A W = val_main_v32 (F := Ideal) A W := by
  funext i
  rw [val_main_v32_apply]
  unfold Cert.KernelIdeal.Layer1.rowsTimes
  refine Finset.sum_congr rfl fun k _ => ?_
  have el : lidx_main_v32 i k = ix2 (⟨(i 0).val, (i 0).isLt⟩ : Fin 50000) k :=
    funext fun a => Fin.ext (by match a with | ⟨0, _⟩ => rfl | ⟨1, _⟩ => rfl)
  have er : ridx_main_v32 i k = ix2 k (⟨(i 1).val, (i 1).isLt⟩ : Fin 128) :=
    funext fun a => Fin.ext (by match a with | ⟨0, _⟩ => rfl | ⟨1, _⟩ => rfl)
  rw [el, er]

/-- The second projection, fed the first aggregate and the first bias as a row, is the reference's second product of the cut-off sum. -/
theorem layer2_eq (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) :
    Cert.KernelIdeal.Layer2.biasReluTimes (val_main_v45 (F := Ideal) x0 x1 x2 x3) (shapeCast Cert.KernelIdeal.S1x128 x4 Cert.KernelIdeal.Gen.shapeCasts_S128_S1x128) x5
      = val_main_v50 (F := Ideal) x0 x1 x2 x3 x4 x5 := by
  funext i
  rw [val_main_v50_apply]
  unfold Cert.KernelIdeal.Layer2.biasReluTimes
  refine Finset.sum_congr rfl fun k _ => ?_
  rw [val_main_v49_apply, val_main_v48_apply, val_main_v47_apply, val_main_v46_apply, val_main_call1_v0_apply, val_main_call1_cst_apply]
  generalize val_main_v45 (F := Ideal) x0 x1 x2 x3 = A
  have eb : idx_main_v46 (idx_main_v47 (lidx_main_v50 i k)) = ix1 k :=
    funext fun a => Fin.ext (by match a with | ⟨0, _⟩ => rfl)
  have el : lidx_main_v50 i k = ix2 (⟨(i 0).val, (i 0).isLt⟩ : Fin 50000) k :=
    funext fun a => Fin.ext (by match a with | ⟨0, _⟩ => rfl | ⟨1, _⟩ => rfl)
  have er : ridx_main_v50 i k = ix2 k (⟨(i 1).val, (i 1).isLt⟩ : Fin 128) :=
    funext fun a => Fin.ext (by match a with | ⟨0, _⟩ => rfl | ⟨1, _⟩ => rfl)
  rw [eb, el, er, shapeCast_a_1a_apply x4 Cert.KernelIdeal.Gen.shapeCasts_S128_S1x128 (0 : Fin 1) k]
  rfl

/-- The third projection, fed the second aggregate and the second bias as a row, is the reference's third product of the cut-off sum. -/
theorem layer3_eq (x0 : (⟨Cert.ReferenceIdeal.S50000x256, .f32⟩ : BufTy).Contents (Elt Ideal)) (x1 : (⟨Cert.ReferenceIdeal.S2x800000, .i32⟩ : BufTy).Contents (Elt Ideal)) (x2 : (⟨Cert.ReferenceIdeal.S800000, .f32⟩ : BufTy).Contents (Elt Ideal)) (x3 : (⟨Cert.ReferenceIdeal.S256x128, .f32⟩ : BufTy).Contents (Elt Ideal)) (x4 : (⟨Cert.ReferenceIdeal.S128, .f32⟩ : BufTy).Contents (Elt Ideal)) (x5 : (⟨Cert.ReferenceIdeal.S128x128, .f32⟩ : BufTy).Contents (Elt Ideal)) (x6 : (⟨Cert.ReferenceIdeal.S128, .f32⟩ : BufTy).Contents (Elt Ideal)) (x7 : (⟨Cert.ReferenceIdeal.S128x64, .f32⟩ : BufTy).Contents (Elt Ideal)) :
    Cert.KernelIdeal.Layer3.biasReluTimes (val_main_v63 (F := Ideal) x0 x1 x2 x3 x4 x5) (shapeCast Cert.KernelIdeal.S1x128 x6 Cert.KernelIdeal.Gen.shapeCasts_S128_S1x128) x7
      = val_main_v68 (F := Ideal) x0 x1 x2 x3 x4 x5 x6 x7 := by
  funext i
  rw [val_main_v68_apply]
  unfold Cert.KernelIdeal.Layer3.biasReluTimes
  refine Finset.sum_congr rfl fun k _ => ?_
  rw [val_main_v67_apply, val_main_v66_apply, val_main_v65_apply, val_main_v64_apply, val_main_call2_v0_apply, val_main_call2_cst_apply]
  generalize val_main_v63 (F := Ideal) x0 x1 x2 x3 x4 x5 = A
  have eb : idx_main_v64 (idx_main_v65 (lidx_main_v68 i k)) = ix1 k :=
    funext fun a => Fin.ext (by match a with | ⟨0, _⟩ => rfl)
  have el : lidx_main_v68 i k = ix2 (⟨(i 0).val, (i 0).isLt⟩ : Fin 50000) k :=
    funext fun a => Fin.ext (by match a with | ⟨0, _⟩ => rfl | ⟨1, _⟩ => rfl)
  have er : ridx_main_v68 i k = ix2 k (⟨(i 1).val, (i 1).isLt⟩ : Fin 64) :=
    funext fun a => Fin.ext (by match a with | ⟨0, _⟩ => rfl | ⟨1, _⟩ => rfl)
  rw [eb, el, er, shapeCast_a_1a_apply x6 Cert.KernelIdeal.Gen.shapeCasts_S128_S1x128 (0 : Fin 1) k]
  rfl

end Cert.Bridge

end
-- ==== Proof.KernelRun.lean ====
/-
  The whole program's run, with its result named.

  The program is nine segments in a row: three stretches of host operations, the first projection, a stretch, the
  second projection, a stretch, the third projection, a last stretch. The contents of every buffer at each segment
  boundary are a fold from the launch memory (a stretch applies its operations in order; a projection leaves its
  output array at what its write-backs leave and every other buffer as it found it). Every weakly fair execution
  terminates without a fault, and in every final state each buffer that is not scoped holds the last boundary's
  contents: in particular the result array holds the fold's value at the result buffer, and the nine argument arrays
  hold what they were launched with (nothing writes them).
-/
import proofs.«104990_j66194035966386_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution ends with every unscoped buffer of every core at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- Every execution ends with the result array at the fold's value and the nine arguments as launched. -/
theorem run : θ_run defs (onTc (τ := τ) (main (F := F))) ⟨m, fun _ => 0, ρ⟩ (fun r => ∀ c : Dev nD,
      r.2.mem ((c.tc : Thread nD τ).loc main_v78) = W9 m ρ c (Proc.devRef .tc main_v78)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
      ⟨h c _ (mem_uc main_v78 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c),
       (h c _ (mem_uc main_arg6 (by decide))).trans (W9_main_arg6 m ρ c),
       (h c _ (mem_uc main_arg7 (by decide))).trans (W9_main_arg7 m ρ c),
       (h c _ (mem_uc main_arg8 (by decide))).trans (W9_main_arg8 m ρ c)⟩)
    (run_boundary m ρ)

end Cert.KernelIdeal.Whole

end
-- ==== Proof.Fold.lean ====
/-
  The program's buffers at each segment boundary, read as functions of the nine argument arrays.

  Three arrays are computed once, before the first projection, from the edge list and the edge weights and never
  written again: the source index of every edge with one self-loop per node appended, the destination index likewise,
  and the edge's normalised weight (the weight times the inverse square roots of the two endpoints' weighted
  in-degrees, zero where a degree is not positive). Each of the three later stretches of host operations reads them
  and the projection before it: it gathers the projected rows at the sources, scales them by the normalised weights
  and adds them up at the destinations. The reference performs the same operations on the same three arrays, so each
  boundary's contents are the reference's own stages: the first projection is the reference's first product, the
  first aggregate then is its first scatter-sum, the second projection (which adds the bias and cuts off at zero
  before multiplying) is the reference's second product, and so on to the result: the third aggregate plus the last
  bias. No property of the gather, the scatter-sum or the inverse square root is used — both sides apply them to
  equal arguments.
-/
import proofs.«104990_j66194035966386_1_alg».proof.Proof.Gen.KernelIdeal.Frame
import proofs.«104990_j66194035966386_1_alg».proof.Proof.Bridge
import proofs.«104990_j66194035966386_1_alg».proof.Proof.KernelRun
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Cert.ReferenceIdeal.Read

variable (m : (ℓ : Loc nD τ sig) → Buf (Elt Ideal) ℓ) (ρ : Dev nD → PrngReg)

/-- A buffer that no operation of a stretch writes holds after the stretch what it held before. -/
macro "unwritten " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## The arguments when the first projection starts: as launched -/

theorem W3_arg0 (c : Dev nD) : W3 m ρ c (Proc.devRef .tc main_arg0) = m ((c.tc : Thread nD τ).loc main_arg0) :=
  calc W3 m ρ c (Proc.devRef .tc main_arg0)
    _ = W2 m ρ c (Proc.devRef .tc main_arg0) := by unwritten hostOps0_2
    _ = W1 m ρ c (Proc.devRef .tc main_arg0) := by unwritten hostOps0_1
    _ = W0 m ρ c (Proc.devRef .tc main_arg0) := by unwritten hostOps0
    _ = m ((c.tc : Thread nD τ).loc main_arg0) := rfl
theorem W3_arg3 (c : Dev nD) : W3 m ρ c (Proc.devRef .tc main_arg3) = m ((c.tc : Thread nD τ).loc main_arg3) :=
  calc W3 m ρ c (Proc.devRef .tc main_arg3)
    _ = W2 m ρ c (Proc.devRef .tc main_arg3) := by unwritten hostOps0_2
    _ = W1 m ρ c (Proc.devRef .tc main_arg3) := by unwritten hostOps0_1
    _ = W0 m ρ c (Proc.devRef .tc main_arg3) := by unwritten hostOps0
    _ = m ((c.tc : Thread nD τ).loc main_arg3) := rfl
theorem W3_arg4 (c : Dev nD) : W3 m ρ c (Proc.devRef .tc main_arg4) = m ((c.tc : Thread nD τ).loc main_arg4) :=
  calc W3 m ρ c (Proc.devRef .tc main_arg4)
    _ = W2 m ρ c (Proc.devRef .tc main_arg4) := by unwritten hostOps0_2
    _ = W1 m ρ c (Proc.devRef .tc main_arg4) := by unwritten hostOps0_1
    _ = W0 m ρ c (Proc.devRef .tc main_arg4) := by unwritten hostOps0
    _ = m ((c.tc : Thread nD τ).loc main_arg4) := rfl
theorem W3_arg5 (c : Dev nD) : W3 m ρ c (Proc.devRef .tc main_arg5) = m ((c.tc : Thread nD τ).loc main_arg5) :=
  calc W3 m ρ c (Proc.devRef .tc main_arg5)
    _ = W2 m ρ c (Proc.devRef .tc main_arg5) := by unwritten hostOps0_2
    _ = W1 m ρ c (Proc.devRef .tc main_arg5) := by unwritten hostOps0_1
    _ = W0 m ρ c (Proc.devRef .tc main_arg5) := by unwritten hostOps0
    _ = m ((c.tc : Thread nD τ).loc main_arg5) := rfl
theorem W3_arg6 (c : Dev nD) : W3 m ρ c (Proc.devRef .tc main_arg6) = m ((c.tc : Thread nD τ).loc main_arg6) :=
  calc W3 m ρ c (Proc.devRef .tc main_arg6)
    _ = W2 m ρ c (Proc.devRef .tc main_arg6) := by unwritten hostOps0_2
    _ = W1 m ρ c (Proc.devRef .tc main_arg6) := by unwritten hostOps0_1
    _ = W0 m ρ c (Proc.devRef .tc main_arg6) := by unwritten hostOps0
    _ = m ((c.tc : Thread nD τ).loc main_arg6) := rfl
theorem W3_arg7 (c : Dev nD) : W3 m ρ c (Proc.devRef .tc main_arg7) = m ((c.tc : Thread nD τ).loc main_arg7) :=
  calc W3 m ρ c (Proc.devRef .tc main_arg7)
    _ = W2 m ρ c (Proc.devRef .tc main_arg7) := by unwritten hostOps0_2
    _ = W1 m ρ c (Proc.devRef .tc main_arg7) := by unwritten hostOps0_1
    _ = W0 m ρ c (Proc.devRef .tc main_arg7) := by unwritten hostOps0
    _ = m ((c.tc : Thread nD τ).loc main_arg7) := rfl
theorem W3_arg8 (c : Dev nD) : W3 m ρ c (Proc.devRef .tc main_arg8) = m ((c.tc : Thread nD τ).loc main_arg8) :=
  calc W3 m ρ c (Proc.devRef .tc main_arg8)
    _ = W2 m ρ c (Proc.devRef .tc main_arg8) := by unwritten hostOps0_2
    _ = W1 m ρ c (Proc.devRef .tc main_arg8) := by unwritten hostOps0_1
    _ = W0 m ρ c (Proc.devRef .tc main_arg8) := by unwritten hostOps0
    _ = m ((c.tc : Thread nD τ).loc main_arg8) := rfl

/-! ## The three shared arrays, at every boundary where they are read -/

theorem W3_src (c : Dev nD) : W3 m ρ c (Proc.devRef .tc main_v5) = val_main_v5 (F := Ideal) (m ((c.tc : Thread nD τ).loc main_arg1)) := by
  show StableHlo.after hostOps0_2 (StableHlo.after hostOps0_1 (StableHlo.after hostOps0 (W0 m ρ c))) (Proc.devRef .tc main_v5) = _
  after_results_simp
  rfl
theorem W4_src (c : Dev nD) : W4 m ρ c (Proc.devRef .tc main_v5) = val_main_v5 (F := Ideal) (m ((c.tc : Thread nD τ).loc main_arg1)) :=
  (W4_of_ne m ρ c main_v5 (by decide)).trans (W3_src m ρ c)
theorem W6_src (c : Dev nD) : W6 m ρ c (Proc.devRef .tc main_v5) = val_main_v5 (F := Ideal) (m ((c.tc : Thread nD τ).loc main_arg1)) :=
  (W6_of_ne m ρ c main_v5 (by decide)).trans
    ((show W5 m ρ c (Proc.devRef .tc main_v5) = W4 m ρ c (Proc.devRef .tc main_v5) by unwritten hostOps1).trans (W4_src m ρ c))
theorem W8_src (c : Dev nD) : W8 m ρ c (Proc.devRef .tc main_v5) = val_main_v5 (F := Ideal) (m ((c.tc : Thread nD τ).loc main_arg1)) :=
  (W8_of_ne m ρ c main_v5 (by decide)).trans
    ((show W7 m ρ c (Proc.devRef .tc main_v5) = W6 m ρ c (Proc.devRef .tc main_v5) by unwritten hostOps2).trans (W6_src m ρ c))

theorem W3_dst (c : Dev nD) : W3 m ρ c (Proc.devRef .tc main_v6) = val_main_v6 (F := Ideal) (m ((c.tc : Thread nD τ).loc main_arg1)) := by
  show StableHlo.after hostOps0_2 (StableHlo.after hostOps0_1 (StableHlo.after hostOps0 (W0 m ρ c))) (Proc.devRef .tc main_v6) = _
  after_results_simp
  rfl
theorem W4_dst (c : Dev nD) : W4 m ρ c (Proc.devRef .tc main_v6) = val_main_v6 (F := Ideal) (m ((c.tc : Thread nD τ).loc main_arg1)) :=
  (W4_of_ne m ρ c main_v6 (by decide)).trans (W3_dst m ρ c)
theorem W6_dst (c : Dev nD) : W6 m ρ c (Proc.devRef .tc main_v6) = val_main_v6 (F := Ideal) (m ((c.tc : Thread nD τ).loc main_arg1)) :=
  (W6_of_ne m ρ c main_v6 (by decide)).trans
    ((show W5 m ρ c (Proc.devRef .tc main_v6) = W4 m ρ c (Proc.devRef .tc main_v6) by unwritten hostOps1).trans (W4_dst m ρ c))
theorem W8_dst (c : Dev nD) : W8 m ρ c (Proc.devRef .tc main_v6) = val_main_v6 (F := Ideal) (m ((c.tc : Thread nD τ).loc main_arg1)) :=
  (W8_of_ne m ρ c main_v6 (by decide)).trans
    ((show W7 m ρ c (Proc.devRef .tc main_v6) = W6 m ρ c (Proc.devRef .tc main_v6) by unwritten hostOps2).trans (W6_dst m ρ c))

/-! The normalised weights, stretch by stretch: first the weights with the self-loops' ones appended, the weighted
    in-degrees, their comparison with zero and their inverse square roots; then the choice between inverse root and
    zero; then the two gathers at the endpoints and the two products. -/

theorem W1_src (c : Dev nD) : W1 m ρ c (Proc.devRef .tc main_v5) = val_main_v5 (F := Ideal) (m ((c.tc : Thread nD τ).loc main_arg1)) := by
  show StableHlo.after hostOps0 (W0 m ρ c) (Proc.devRef .tc main_v5) = _
  after_results_simp
  rfl
theorem W1_dst (c : Dev nD) : W1 m ρ c (Proc.devRef .tc main_v6) = val_main_v6 (F := Ideal) (m ((c.tc : Thread nD τ).loc main_arg1)) := by
  show StableHlo.after hostOps0 (W0 m ρ c) (Proc.devRef .tc main_v6) = _
  after_results_simp
  rfl
theorem W1_weights (c : Dev nD) : W1 m ρ c (Proc.devRef .tc main_v8) = val_main_v8 (F := Ideal) (m ((c.tc : Thread nD τ).loc main_arg2)) := by
  show StableHlo.after hostOps0 (W0 m ρ c) (Proc.devRef .tc main_v8) = _
  after_results_simp
  rfl
theorem W1_positive (c : Dev nD) : W1 m ρ c (Proc.devRef .tc main_v13) = val_main_v13 (F := Ideal) (m ((c.tc : Thread nD τ).loc main_arg1)) (m ((c.tc : Thread nD τ).loc main_arg2)) := by
  show StableHlo.after hostOps0 (W0 m ρ c) (Proc.devRef .tc main_v13) = _
  after_results_simp
  rfl
theorem W1_invRoot (c : Dev nD) : W1 m ρ c (Proc.devRef .tc main_v14) = val_main_v14 (F := Ideal) (m ((c.tc : Thread nD τ).loc main_arg1)) (m ((c.tc : Thread nD τ).loc main_arg2)) := by
  show StableHlo.after hostOps0 (W0 m ρ c) (Proc.devRef .tc main_v14) = _
  after_results_simp
  rfl
theorem W1_zero (c : Dev nD) : W1 m ρ c (Proc.devRef .tc main_cst_2) = val_main_cst_2 (F := Ideal) := by
  show StableHlo.after hostOps0 (W0 m ρ c) (Proc.devRef .tc main_cst_2) = _
  after_results_simp
  rfl

theorem W2_invRootOrZero (c : Dev nD) : W2 m ρ c (Proc.devRef .tc main_v15) = val_main_v15 (F := Ideal) (m ((c.tc : Thread nD τ).loc main_arg1)) (m ((c.tc : Thread nD τ).loc main_arg2)) := by
  have e13 := W1_positive m ρ c
  have e14 := W1_invRoot m ρ c
  have e0 := W1_zero m ρ c
  show StableHlo.after hostOps0_1 (W1 m ρ c) (Proc.devRef .tc main_v15) = _
  generalize W1 m ρ c = B at e13 e14 e0 ⊢
  after_results_simp
  simp only [TRef.toBuf, TRef.ofBuf, cast_eq]
  rw [e13, e14, e0]
  rfl
theorem W2_src (c : Dev nD) : W2 m ρ c (Proc.devRef .tc main_v5) = val_main_v5 (F := Ideal) (m ((c.tc : Thread nD τ).loc main_arg1)) :=
  (show W2 m ρ c (Proc.devRef .tc main_v5) = W1 m ρ c (Proc.devRef .tc main_v5) by unwritten hostOps0_1).trans (W1_src m ρ c)
theorem W2_dst (c : Dev nD) : W2 m ρ c (Proc.devRef .tc main_v6) = val_main_v6 (F := Ideal) (m ((c.tc : Thread nD τ).loc main_arg1)) :=
  (show W2 m ρ c (Proc.devRef .tc main_v6) = W1 m ρ c (Proc.devRef .tc main_v6) by unwritten hostOps0_1).trans (W1_dst m ρ c)
theorem W2_weights (c : Dev nD) : W2 m ρ c (Proc.devRef .tc main_v8) = val_main_v8 (F := Ideal) (m ((c.tc : Thread nD τ).loc main_arg2)) :=
  (show W2 m ρ c (Proc.devRef .tc main_v8) = W1 m ρ c (Proc.devRef .tc main_v8) by unwritten hostOps0_1).trans (W1_weights m ρ c)

theorem W3_norm (c : Dev nD) : W3 m ρ c (Proc.devRef .tc main_v31) = val_main_v31 (F := Ideal) (m ((c.tc : Thread nD τ).loc main_arg1)) (m ((c.tc : Thread nD τ).loc main_arg2)) := by
  have e15 := W2_invRootOrZero m ρ c
  have e5 := W2_src m ρ c
  have e6 := W2_dst m ρ c
  have e8 := W2_weights m ρ c
  show StableHlo.after hostOps0_2 (W2 m ρ c) (Proc.devRef .tc main_v31) = _
  generalize W2 m ρ c = B at e15 e5 e6 e8 ⊢
  after_results_simp
  rw [e15, e5, e6, e8]
  rfl
theorem W4_norm (c : Dev nD) : W4 m ρ c (Proc.devRef .tc main_v31) = val_main_v31 (F := Ideal) (m ((c.tc : Thread nD τ).loc main_arg1)) (m ((c.tc : Thread nD τ).loc main_arg2)) :=
  (W4_of_ne m ρ c main_v31 (by decide)).trans (W3_norm m ρ c)
theorem W6_norm (c : Dev nD) : W6 m ρ c (Proc.devRef .tc main_v31) = val_main_v31 (F := Ideal) (m ((c.tc : Thread nD τ).loc main_arg1)) (m ((c.tc : Thread nD τ).loc main_arg2)) :=
  (W6_of_ne m ρ c main_v31 (by decide)).trans
    ((show W5 m ρ c (Proc.devRef .tc main_v31) = W4 m ρ c (Proc.devRef .tc main_v31) by unwritten hostOps1).trans (W4_norm m ρ c))
theorem W8_norm (c : Dev nD) : W8 m ρ c (Proc.devRef .tc main_v31) = val_main_v31 (F := Ideal) (m ((c.tc : Thread nD τ).loc main_arg1)) (m ((c.tc : Thread nD τ).loc main_arg2)) :=
  (W8_of_ne m ρ c main_v31 (by decide)).trans
    ((show W7 m ρ c (Proc.devRef .tc main_v31) = W6 m ρ c (Proc.devRef .tc main_v31) by unwritten hostOps2).trans (W6_norm m ρ c))

/-! ## The arguments read later, at the boundary where they are read -/

theorem W4_arg4 (c : Dev nD) : W4 m ρ c (Proc.devRef .tc main_arg4) = m ((c.tc : Thread nD τ).loc main_arg4) :=
  (W4_of_ne m ρ c main_arg4 (by decide)).trans (W3_arg4 m ρ c)
theorem W5_arg5 (c : Dev nD) : W5 m ρ c (Proc.devRef .tc main_arg5) = m ((c.tc : Thread nD τ).loc main_arg5) :=
  (show W5 m ρ c (Proc.devRef .tc main_arg5) = W4 m ρ c (Proc.devRef .tc main_arg5) by unwritten hostOps1).trans
    ((W4_of_ne m ρ c main_arg5 (by decide)).trans (W3_arg5 m ρ c))
theorem W6_arg6 (c : Dev nD) : W6 m ρ c (Proc.devRef .tc main_arg6) = m ((c.tc : Thread nD τ).loc main_arg6) :=
  (W6_of_ne m ρ c main_arg6 (by decide)).trans
    ((show W5 m ρ c (Proc.devRef .tc main_arg6) = W4 m ρ c (Proc.devRef .tc main_arg6) by unwritten hostOps1).trans
      ((W4_of_ne m ρ c main_arg6 (by decide)).trans (W3_arg6 m ρ c)))
theorem W7_arg7 (c : Dev nD) : W7 m ρ c (Proc.devRef .tc main_arg7) = m ((c.tc : Thread nD τ).loc main_arg7) :=
  (show W7 m ρ c (Proc.devRef .tc main_arg7) = W6 m ρ c (Proc.devRef .tc main_arg7) by unwritten hostOps2).trans
    ((W6_of_ne m ρ c main_arg7 (by decide)).trans
      ((show W5 m ρ c (Proc.devRef .tc main_arg7) = W4 m ρ c (Proc.devRef .tc main_arg7) by unwritten hostOps1).trans
        ((W4_of_ne m ρ c main_arg7 (by decide)).trans (W3_arg7 m ρ c))))
theorem W8_arg8 (c : Dev nD) : W8 m ρ c (Proc.devRef .tc main_arg8) = m ((c.tc : Thread nD τ).loc main_arg8) :=
  (W8_of_ne m ρ c main_arg8 (by decide)).trans
    ((show W7 m ρ c (Proc.devRef .tc main_arg8) = W6 m ρ c (Proc.devRef .tc main_arg8) by unwritten hostOps2).trans
      ((W6_of_ne m ρ c main_arg8 (by decide)).trans
        ((show W5 m ρ c (Proc.devRef .tc main_arg8) = W4 m ρ c (Proc.devRef .tc main_arg8) by unwritten hostOps1).trans
          ((W4_of_ne m ρ c main_arg8 (by decide)).trans (W3_arg8 m ρ c)))))

/-! ## Layer one -/

/-- After the first projection its output array is the reference's first product. -/
theorem W4_proj1 (c : Dev nD) : W4 m ρ c (Proc.devRef .tc main_v32) = val_main_v32 (F := Ideal) (m ((c.tc : Thread nD τ).loc main_arg0)) (m ((c.tc : Thread nD τ).loc main_arg3)) := by
  refine (W4_arr m ρ c 2).trans ?_
  rw [Layer1.value (V3 m ρ) c]
  show Layer1.rowsTimes (W3 m ρ c (Proc.devRef .tc main_arg0)) (W3 m ρ c (Proc.devRef .tc main_arg3)) = _
  rw [W3_arg0 m ρ c, W3_arg3 m ρ c]
  exact Cert.Bridge.layer1_eq _ _

/-- The first aggregate: the projected rows gathered at the sources, scaled, and summed at the destinations. -/
theorem W5_agg1 (c : Dev nD) : W5 m ρ c (Proc.devRef .tc main_v45) = val_main_v45 (F := Ideal) (m ((c.tc : Thread nD τ).loc main_arg0)) (m ((c.tc : Thread nD τ).loc main_arg1)) (m ((c.tc : Thread nD τ).loc main_arg2)) (m ((c.tc : Thread nD τ).loc main_arg3)) := by
  show StableHlo.after hostOps1 (W4 m ρ c) (Proc.devRef .tc main_v45) = _
  after_results_simp
  rw [W4_norm m ρ c, W4_src m ρ c, W4_dst m ρ c, W4_proj1 m ρ c]
  rfl

/-- The first bias as a one-row array. -/
theorem W5_bias1 (c : Dev nD) : W5 m ρ c (Proc.devRef .tc main_v46) = shapeCast S1x128 (m ((c.tc : Thread nD τ).loc main_arg4)) shapeCasts_S128_S1x128 := by
  show StableHlo.after hostOps1 (W4 m ρ c) (Proc.devRef .tc main_v46) = _
  after_results_simp
  rw [W4_arg4 m ρ c]
  rfl

/-! ## Layer two -/

/-- After the second projection its output array is the reference's second product. -/
theorem W6_proj2 (c : Dev nD) : W6 m ρ c (Proc.devRef .tc main_v47) = val_main_v50 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  refine (W6_arr m ρ c 3).trans ?_
  rw [Layer2.value (V5 m ρ) c]
  show Layer2.biasReluTimes (W5 m ρ c (Proc.devRef .tc main_v45)) (W5 m ρ c (Proc.devRef .tc main_v46)) (W5 m ρ c (Proc.devRef .tc main_arg5)) = _
  rw [W5_agg1 m ρ c, W5_bias1 m ρ c, W5_arg5 m ρ c]
  exact Cert.Bridge.layer2_eq _ _ _ _ _ _

/-- The second aggregate. -/
theorem W7_agg2 (c : Dev nD) : W7 m ρ c (Proc.devRef .tc main_v60) = val_main_v63 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show StableHlo.after hostOps2 (W6 m ρ c) (Proc.devRef .tc main_v60) = _
  after_results_simp
  rw [W6_norm m ρ c, W6_src m ρ c, W6_dst m ρ c, W6_proj2 m ρ c]
  rfl

/-- The second bias as a one-row array. -/
theorem W7_bias2 (c : Dev nD) : W7 m ρ c (Proc.devRef .tc main_v61) = shapeCast S1x128 (m ((c.tc : Thread nD τ).loc main_arg6)) shapeCasts_S128_S1x128 := by
  show StableHlo.after hostOps2 (W6 m ρ c) (Proc.devRef .tc main_v61) = _
  after_results_simp
  rw [W6_arg6 m ρ c]
  rfl

/-! ## Layer three -/

/-- After the third projection its output array is the reference's third product. -/
theorem W8_proj3 (c : Dev nD) : W8 m ρ c (Proc.devRef .tc main_v62) = val_main_v68 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 3).trans ?_
  rw [Layer3.value (V7 m ρ) c]
  show Layer3.biasReluTimes (W7 m ρ c (Proc.devRef .tc main_v60)) (W7 m ρ c (Proc.devRef .tc main_v61)) (W7 m ρ c (Proc.devRef .tc main_arg7)) = _
  rw [W7_agg2 m ρ c, W7_bias2 m ρ c, W7_arg7 m ρ c]
  exact Cert.Bridge.layer3_eq _ _ _ _ _ _ _ _

/-- The result: the third aggregate plus the last bias repeated over all rows — the reference's result. -/
theorem W9_result (c : Dev nD) : W9 m ρ c (Proc.devRef .tc main_v78) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  show StableHlo.after hostOps3 (W8 m ρ c) (Proc.devRef .tc main_v78) = _
  after_results_simp
  rw [W8_norm m ρ c, W8_src m ρ c, W8_dst m ρ c, W8_proj3 m ρ c, W8_arg8 m ρ c]
  rfl

/-! ## The run -/

/-- Every execution of the program ends with the result array at the reference's last stage of the launch contents of
    the nine arguments, and the arguments as launched. -/
theorem run : θ_run defs (onTc (τ := τ) (main (F := Ideal))) ⟨m, fun _ => 0, ρ⟩ (fun r => ∀ c : Dev nD,
      r.2.mem ((c.tc : Thread nD τ).loc main_v78) = val_main_v84 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (W9_result m ρ c), (h c).2⟩) (Cert.KernelIdeal.Whole.run m ρ)

end Cert.KernelIdeal.Fold

end
-- ==== Proof.lean ====
/-
  A three-layer graph convolution, computed two ways, gives equal results over the extended reals.

  Both programs first build, from the edge list and the edge weights, the source and destination index of every edge
  (one self-loop per node appended) and the edge's normalised weight. A layer then maps a [50000, ·] array h to
      aggregate (h · W) + b,      aggregate (g) (d, ·) = Σ_{edges e with destination d} normalised (e) · g (source (e), ·),
  and the network is  layer₃ (relu (layer₂ (relu (layer₁ (x))))).
  The reference does exactly this, each product over the whole array. The kernel program moves the bias and the
  cut-off of a layer into the NEXT layer's product: it computes x · W₁ row block by row block, aggregates, then
  computes relu (agg₁ + b₁) · W₂ row block by row block, aggregates, then relu (agg₂ + b₂) · W₃, aggregates, and adds
  b₃. Entry by entry the row-blocked products are the whole products (a sum over the contracted axis, the change of
  float format before the product being the identity here), and everything else is the same operation applied to
  equal arguments; no rearrangement of a sum and no finiteness of an input is needed.

  The three frames: the two kernel programs by their generated frame certificates, the reference by its run. The
  idealization rewrote nothing, so there is nothing to preserve.
-/
import proofs.«104990_j66194035966386_1_alg».proof.Defs
import proofs.«104990_j66194035966386_1_alg».proof.Proof.Gen.Kernel
import proofs.«104990_j66194035966386_1_alg».proof.Proof.Gen.Kernel.Skeleton
import proofs.«104990_j66194035966386_1_alg».proof.Proof.Gen.Kernel.Launch
import proofs.«104990_j66194035966386_1_alg».proof.Proof.Gen.Kernel.Points
import proofs.«104990_j66194035966386_1_alg».proof.Proof.Gen.Kernel.Frame
import proofs.«104990_j66194035966386_1_alg».proof.Proof.Gen.KernelIdeal
import proofs.«104990_j66194035966386_1_alg».proof.Proof.Gen.KernelIdeal.Skeleton
import proofs.«104990_j66194035966386_1_alg».proof.Proof.Gen.KernelIdeal.Launch
import proofs.«104990_j66194035966386_1_alg».proof.Proof.Gen.KernelIdeal.Points
import proofs.«104990_j66194035966386_1_alg».proof.Proof.Gen.KernelIdeal.Frame
import proofs.«104990_j66194035966386_1_alg».proof.Proof.Gen.ReferenceIdeal
import proofs.«104990_j66194035966386_1_alg».proof.Proof.Gen.Pre_finite_inputs
import proofs.«104990_j66194035966386_1_alg».proof.Proof.Gen.ReferenceIdeal.Read
import proofs.«104990_j66194035966386_1_alg».proof.Proof.Fold
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the reference's last stage of the argument arrays, and the argument arrays agree. -/
theorem algebraic : Cert.algebraic_KernelIdeal_ReferenceIdeal := by
  intro m ρ m' ρ' _ hagree
  refine ⟨_, Cert.KernelIdeal.Fold.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8⟩ := hagree c
  rw [Cert.ReferenceIdeal.Read.val_main_v84_eq, h0, h1, h2, h3, h4, h5, h6, h7, h8]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
